-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S8192x2048 : Shape := ⟨2, ![8192, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S1x2048x2048 .f32) (main_arg1 : FVec F S8192x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S1x2048x2048 : Shape := ⟨3, ![1, 2048, 2048]⟩
abbrev S8192x2048 : Shape := ⟨2, ![8192, 2048]⟩
abbrev S2048x2048 : Shape := ⟨2, ![2048, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S1x512 : Shape := ⟨2, ![1, 512]⟩

abbrev nBuf : Space → Nat
  | .hbm => 5
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S2048x8192, .f32⟩
  | .local _ .vmem, ⟨0, _⟩ => ⟨S2048x2048, .bf16⟩
  | .local _ .vmem, ⟨1, _⟩ => ⟨S512x2048, .f32⟩
  | .local _ .vmem, ⟨2, _⟩ => ⟨S512x2048, .f32⟩
  | .local _ .vmem, ⟨3, _⟩ => ⟨S2048x512, .f32⟩
  | .local _ .vmem, ⟨4, _⟩ => ⟨S2048x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x2048x2048_S2048x2048 : S1x2048x2048.ShapeCasts S2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x2048_S512x2048_S2048x512_0_1_1_0_n_n_wf : DotDims.WF S2048x2048 S512x2048 S2048x512 [0] [1] [1] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x8192.size a
  hwx0_2 : ∀ i : grid0.Coords, EltTy.bits .f32 = 32 ∨ (Rect.block (s := S2048x8192) S2048x512.size (cc0_transform_2 i) (hinb0_2 i)).WholeWords (EltTy.packing .f32)

variable [Facts₀]

def dot_S2048x2048_S512x2048_S2048x512_0_1_1_0_n_n : DotDims S2048x2048 S512x2048 S2048x512 where
  lhsContracting := [0]
  rhsContracting := [1]
  lhsNonContracting := [1]
  rhsNonContracting := [0]
  lhsBatch := []
  rhsBatch := []
  wf := dot_S2048x2048_S512x2048_S2048x512_0_1_1_0_n_n_wf

abbrev win0_0 : Pipeline.Window sig grid0 :=
  Pipeline.Window.ofSpec (Memref.whole main_v1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x2048x2048 : Shape := ⟨3, ![1, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S2048x8192 : Shape := ⟨2, ![2048, 8192]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S2048x2048, .f32⟩
  | .hbm, ⟨17, _⟩ => ⟨S8192x2048, .f32⟩
  | .hbm, ⟨18, _⟩ => ⟨S2048x8192, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  shapeCasts_S1x2048x2048_S2048x2048 : S1x2048x2048.ShapeCasts S2048x2048
  transposes_S8192x2048_S2048x8192_1_0 : S8192x2048.Transposes [1, 0] S2048x8192
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.SoftmaxPool.lean ====
/-
  Attention pooling by a row softmax, as mathematics on the extended reals.

  For one row  σ  of similarities (n entries) and one column  w  of the value matrix (n entries) the pooled entry is
      Σ_j  w j · softmax(σ) j ,     softmax(σ) j = exp (σ j − max σ) / Σ_k exp (σ k − max σ).
  It can be computed in two orders: normalise every weight first and then sum the products,
      Σ_j (exp (σ j − max σ) / D) · w j ,
  or sum the products of the unnormalised weights and multiply the total by the reciprocal of the denominator once,
      (Σ_j w j · exp (σ j − max σ)) · (1 / D).
  The two agree by distributivity, which on the extended reals needs every term to be a real number: when every
  σ j and every w j is real, the row maximum (taken from −∞ over a nonempty row) is real, every shifted exponential
  is a positive real, the denominator D is a positive real, and both orders are the same real number.
-/
import Mathlib.Data.Finset.Fold
import Idealize.ShloMosaic.PureOps.Ideal
import Idealize.ShloMosaic.PureOps.Ideal.Laws
import Idealize.ShloMosaic.Lib.ValueIdx
import proofs.«112721_g77283641524595_feedfinal_129_7_alg».proof.Proof.LibReal

noncomputable section

namespace Cert.SoftmaxPool

open Idealize.ShloMosaic

variable {n : ℕ}

/-- The largest entry of a row, the maximum taken from −∞. -/
def rowMax (σ : Fin n → EReal) : EReal := (Finset.univ : Finset (Fin n)).fold max ⊥ σ

/-- The unnormalised softmax weight of entry j: the exponential of the entry less the largest entry of the row. -/
def shifted (σ : Fin n → EReal) (j : Fin n) : EReal := Ideal.exp (σ j - rowMax σ)

/-- The pooled entry in the order: sum the unnormalised products, then multiply by the reciprocal of the denominator. -/
def pooledRow (w σ : Fin n → EReal) : EReal :=
  (∑ j, w j * shifted σ j) * Ideal.div 1 (∑ j, shifted σ j)

/-- The maximum of a nonempty row of real numbers is a real number: it is at least the first entry, which is above −∞,
    and it is below +∞ because every entry is. -/
theorem rowMax_real (hn : 0 < n) (σ : Fin n → EReal) (hσ : ∀ j, ∃ r : ℝ, σ j = (r : EReal)) :
    ∃ r : ℝ, rowMax σ = (r : EReal) := by
  have hbot : rowMax σ ≠ ⊥ := by
    obtain ⟨r, hr⟩ := hσ ⟨0, hn⟩
    have hle : σ ⟨0, hn⟩ ≤ rowMax σ := (Finset.le_fold_max _).mpr (Or.inr ⟨⟨0, hn⟩, Finset.mem_univ _, le_rfl⟩)
    rw [hr] at hle
    exact (lt_of_lt_of_le (EReal.bot_lt_coe r) hle).ne'
  have htop : rowMax σ ≠ ⊤ := by
    have hlt : rowMax σ < ⊤ := (Finset.fold_max_lt _).mpr ⟨bot_lt_top, fun j _ => by
      obtain ⟨r, hr⟩ := hσ j
      rw [hr]; exact EReal.coe_lt_top r⟩
    exact hlt.ne
  exact ⟨(rowMax σ).toReal, (EReal.coe_toReal htop hbot).symm⟩

/-- Every unnormalised weight of a nonempty real row is a positive real number. -/
theorem shifted_real (hn : 0 < n) (σ : Fin n → EReal) (hσ : ∀ j, ∃ r : ℝ, σ j = (r : EReal)) :
    ∃ g : Fin n → ℝ, (∀ j, 0 < g j) ∧ ∀ j, shifted σ j = (g j : EReal) := by
  obtain ⟨b, hb⟩ := rowMax_real hn σ hσ
  choose a ha using hσ
  refine ⟨fun j => Real.exp (a j - b), fun j => Real.exp_pos _, fun j => ?_⟩
  unfold shifted
  rw [ha j, hb, ← EReal.coe_sub, Ideal.exp_coe]

/-- THE LAW: for a nonempty row of real similarities and a real column of values, multiplying the sum of the
    unnormalised products by the reciprocal of the denominator once is the sum of the products with the normalised
    weights. -/
theorem pooledRow_eq_sum_div (hn : 0 < n) (w σ : Fin n → EReal) (hw : ∀ j, ∃ r : ℝ, w j = (r : EReal))
    (hσ : ∀ j, ∃ r : ℝ, σ j = (r : EReal)) :
    pooledRow w σ = ∑ j, Ideal.div (shifted σ j) (∑ k, shifted σ k) * w j := by
  obtain ⟨g, hgpos, hg⟩ := shifted_real hn σ hσ
  choose v hv using hw
  have hD : (∑ j, g j) ≠ 0 :=
    (Finset.sum_pos (fun j _ => hgpos j) ⟨⟨0, hn⟩, Finset.mem_univ _⟩).ne'
  have hsum : ∑ j, shifted σ j = ((∑ j, g j : ℝ) : EReal) := by
    rw [LibReal.coe_sum]; exact Finset.sum_congr rfl fun j _ => hg j
  have hl : ∑ j, w j * shifted σ j = ((∑ j, v j * g j : ℝ) : EReal) := by
    rw [LibReal.coe_sum]; exact Finset.sum_congr rfl fun j _ => by rw [hv j, hg j, EReal.coe_mul]
  have hr : ∀ j, Ideal.div (shifted σ j) ((∑ k, g k : ℝ) : EReal) * w j
      = ((g j * (1 / ∑ k, g k) * v j : ℝ) : EReal) := fun j => by
    rw [Ideal.div_coe hD, hg j, hv j, ← EReal.coe_mul, ← EReal.coe_mul]
  unfold pooledRow
  rw [hsum, hl, Ideal.div_coe hD, one_mul, ← EReal.coe_mul, Finset.sum_congr rfl fun j _ => hr j, ← LibReal.coe_sum]
  refine congrArg _ ?_
  rw [Finset.sum_mul]
  exact Finset.sum_congr rfl fun j _ => by ring

/-- THE RESULT ARRAY: for a value matrix u (one slab of 2048 rows and 2048 columns) and similarities s (8192 rows of
    2048), entry (d, t) of the 2048 by 8192 result is the pooled entry of column d of the value matrix and row t of the
    similarities. -/
def pooled (u : (⟨3, ![1, 2048, 2048]⟩ : Shape).Idx → EReal) (s : (⟨2, ![8192, 2048]⟩ : Shape).Idx → EReal) :
    (⟨2, ![2048, 8192]⟩ : Shape).Idx → EReal := fun i =>
  pooledRow (fun k : Fin 2048 => u (ValueIdx.ix3 (0 : Fin 1) k (i 0))) (fun k : Fin 2048 => s (ValueIdx.ix2 (i 1) k))

theorem pooled_at (u : (⟨3, ![1, 2048, 2048]⟩ : Shape).Idx → EReal) (s : (⟨2, ![8192, 2048]⟩ : Shape).Idx → EReal)
    (d : Fin 2048) (t : Fin 8192) :
    pooled u s (ValueIdx.ix2 d t)
      = pooledRow (fun k : Fin 2048 => u (ValueIdx.ix3 (0 : Fin 1) k d)) (fun k : Fin 2048 => s (ValueIdx.ix2 t k)) := rfl

/-- The f32 pattern with the sign bit and all exponent bits set and a zero fraction denotes −∞. -/
theorem bot_f32 : Ideal.ofBits .f32 0xFF800000#32 = ⊥ := by
  simp [Ideal.ofBits, Ideal.ieee]

/-- The f32 pattern of 1.0 denotes the real number one. -/
theorem one_f32 : Ideal.ofBits .f32 0x3F800000#32 = 1 := IdealRules.sign_bit.ideal_onePat .f32

end Cert.SoftmaxPool

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockBody.lean ====
/-
  What the kernel body computes from one block, entry by entry.

  At a grid point the body holds a block  v0  of 512 rows of similarities (2048 columns each) and the whole value
  matrix  v8  (2048 rows, 2048 columns). For each of its 512 rows it takes the row maximum, exponentiates the row less
  its maximum, and sums the exponentials (the denominator). It multiplies the transposed value matrix with the
  transposed unnormalised weights on the matrix unit, so that entry (d, r) of the product is
      Σ_k  v8 (k, d) · exp (v0 (r, k) − max_k v0 (r, ·)),
  and finally multiplies entry (d, r) by the reciprocal of row r's denominator, laid out as one row of 512 reciprocals
  copied down the 2048 rows. So entry (d, r) of the stored block is the pooled entry of column d of the value matrix
  and row r of the similarities, in the order: sum the unnormalised products, multiply by the reciprocal once.
-/
import proofs.«112721_g77283641524595_feedfinal_129_7_alg».proof.Proof.Gen.KernelIdeal.Skeleton
import proofs.«112721_g77283641524595_feedfinal_129_7_alg».proof.Proof.SoftmaxPool
import proofs.«112721_g77283641524595_feedfinal_129_7_alg».proof.Proof.LibColumn
import proofs.«112721_g77283641524595_feedfinal_129_7_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockBody

open Cert.KernelIdeal Idealize.ShloMosaic Idealize.ShloMosaic.ValueIdx Cert.SoftmaxPool
open Facts₀

/-- The unnormalised weights of a block: every entry exponentiated after its row's maximum is subtracted. -/
def expBlk (v0 : FVec Ideal S512x2048 .f32) : FVec Ideal S512x2048 .f32 :=
  exp (subf v0 (broadcastTo S512x2048 (shapeCast S512x1
    (multiReduction (F := Ideal) .maximumf [1] S512 v0 0xFF800000#32 reduces_S512x2048_S512 (.inl rfl) rfl)
    shapeCasts_S512_S512x1) broadcasts_S512x1_S512x2048))

/-- The product on the matrix unit: the value matrix contracted on its rows with the weights contracted on their columns. -/
def prodBlk (v0 : FVec Ideal S512x2048 .f32) (v8 : FVec Ideal S2048x2048 .bf16) : FVec Ideal S2048x512 .f32 :=
  matmul dot_S2048x2048_S512x2048_S2048x512_0_1_1_0_n_n none (shapeCast S2048x2048 v8 shapeCasts_S2048x2048_S2048x2048)
    (truncf .bf16 (expBlk v0) bitsLt_bf16_f32) (constant (F := Ideal) S2048x512 .f32 0x00000000#32)

/-- The reciprocals of the rows' denominators, as one row copied down the 2048 rows of the product. -/
def recipBlk (v0 : FVec Ideal S512x2048 .f32) : FVec Ideal S2048x512 .f32 :=
  broadcastTo S2048x512 (shapeCast S1x512
    (divf (broadcast S512 (Scalar.ofBits (F := Ideal) .f32 0x3F800000#32))
      (multiReduction (F := Ideal) .add [1] S512 (expBlk v0) 0x00000000#32 reduces_S512x2048_S512 (.inl rfl) rfl))
    shapeCasts_S512_S1x512) broadcasts_S1x512_S2048x512

/-- The stored value is the product times the reciprocals, entry by entry. -/
theorem pay_eq (v0 : FVec Ideal S512x2048 .f32) (v8 : FVec Ideal S2048x2048 .bf16) :
    Gen.k0_pay1 (F := Ideal) v0 v8 = mulf (prodBlk v0 v8) (recipBlk v0) := rfl

/-- The maximum the body takes along a row of its block is that row's maximum from −∞. -/
theorem blockRowMax (v0 : FVec Ideal S512x2048 .f32) (r : Fin 512) :
    multiReduction (F := Ideal) .maximumf [1] S512 v0 0xFF800000#32 reduces_S512x2048_S512 (.inl rfl) rfl (ix1 r)
      = rowMax (fun k : Fin 2048 => v0 (ix2 r k)) := by
  refine (Ideal.multiReduction_maximumf_single v0 0xFF800000#32 reduces_S512x2048_S512 (.inl rfl) rfl (ix1 r)).trans ?_
  unfold rowMax
  show (Finset.univ : Finset (Fin 2048)).fold max (Ideal.ofBits .f32 0xFF800000#32)
      (fun k => v0 (reduces_S512x2048_S512.lift (ix1 r) k)) = _
  rw [bot_f32]
  refine congrArg (fun f => (Finset.univ : Finset (Fin 2048)).fold max ⊥ f) (funext fun k => congrArg v0 (funext fun a => Fin.ext ?_))
  match a with
  | ⟨0, _⟩ => rfl
  | ⟨1, _⟩ => rfl

/-- Entry (r, k) of the unnormalised weights is the shifted exponential of entry k of row r. -/
theorem expBlk_at (v0 : FVec Ideal S512x2048 .f32) (r : Fin 512) (k : Fin 2048) :
    expBlk v0 (ix2 r k) = shifted (fun k : Fin 2048 => v0 (ix2 r k)) k := by
  unfold expBlk shifted
  show Ideal.exp (v0 (ix2 r k) - broadcastTo S512x2048 (shapeCast S512x1
    (multiReduction (F := Ideal) .maximumf [1] S512 v0 0xFF800000#32 reduces_S512x2048_S512 (.inl rfl) rfl)
    shapeCasts_S512_S512x1) broadcasts_S512x1_S512x2048 (ix2 r k)) = _
  exact congrArg (fun z => Ideal.exp (v0 (ix2 r k) - z))
    ((broadcastTo_a1_ab_apply _ broadcasts_S512x1_S512x2048 r k).trans
      ((shapeCast_a_a1_apply _ shapeCasts_S512_S512x1 r 0).trans (blockRowMax v0 r)))

/-- The sum the body takes along row r of the unnormalised weights is the sum of that row's shifted exponentials. -/
theorem blockDenom (v0 : FVec Ideal S512x2048 .f32) (r : Fin 512) :
    multiReduction (F := Ideal) .add [1] S512 (expBlk v0) 0x00000000#32 reduces_S512x2048_S512 (.inl rfl) rfl (ix1 r)
      = ∑ k : Fin 2048, shifted (fun k : Fin 2048 => v0 (ix2 r k)) k := by
  refine (Ideal.multiReduction_add_single (expBlk v0) 0x00000000#32 reduces_S512x2048_S512 (.inl rfl) rfl (ix1 r)).trans ?_
  show ∑ k : Fin 2048, expBlk v0 (reduces_S512x2048_S512.lift (ix1 r) k) = _
  refine Finset.sum_congr rfl fun k _ => ?_
  refine (congrArg (expBlk v0) (funext fun a => Fin.ext ?_)).trans (expBlk_at v0 r k)
  match a with
  | ⟨0, _⟩ => rfl
  | ⟨1, _⟩ => rfl

/-- Entry (d, r) of the reciprocals is one over row r's denominator. -/
theorem recipBlk_at (v0 : FVec Ideal S512x2048 .f32) (d : Fin 2048) (r : Fin 512) :
    recipBlk v0 (ix2 d r) = Ideal.div 1 (∑ k : Fin 2048, shifted (fun k : Fin 2048 => v0 (ix2 r k)) k) := by
  unfold recipBlk
  refine (broadcastTo_1b_ab_apply _ broadcasts_S1x512_S2048x512 d r).trans ?_
  refine (shapeCast_a_1a_apply _ shapeCasts_S512_S1x512 0 r).trans ?_
  show Ideal.div (Ideal.ofBits .f32 0x3F800000#32)
    (multiReduction (F := Ideal) .add [1] S512 (expBlk v0) 0x00000000#32 reduces_S512x2048_S512 (.inl rfl) rfl (ix1 r)) = _
  rw [one_f32, blockDenom]

/-- The operand indices of the product at an output entry and a contraction index, coordinate by coordinate: the value
    matrix is read at (contraction coordinate, output row) and the weights at (output column, contraction coordinate). -/
theorem lhs_row (i : S2048x512.Idx) (q : dot_S2048x2048_S512x2048_S2048x512_0_1_1_0_n_n.contr.Idx) :
    (dot_S2048x2048_S512x2048_S2048x512_0_1_1_0_n_n.lhsIdx i q 0).val = (q ⟨0, by decide⟩).val :=
  dot_S2048x2048_S512x2048_S2048x512_0_1_1_0_n_n.lhsIdx_val_of_single rfl i q
theorem lhs_col (i : S2048x512.Idx) (q : dot_S2048x2048_S512x2048_S2048x512_0_1_1_0_n_n.contr.Idx) :
    (dot_S2048x2048_S512x2048_S2048x512_0_1_1_0_n_n.lhsIdx i q 1).val = (i 0).val := by
  unfold DotDims.lhsIdx
  rw [dif_neg (show ¬(1 : Fin S2048x2048.rank) ∈ dot_S2048x2048_S512x2048_S2048x512_0_1_1_0_n_n.lhsBatch by decide),
    dif_pos (show (1 : Fin S2048x2048.rank) ∈ dot_S2048x2048_S512x2048_S2048x512_0_1_1_0_n_n.lhsNonContracting by decide)]
  rfl
theorem rhs_row (i : S2048x512.Idx) (q : dot_S2048x2048_S512x2048_S2048x512_0_1_1_0_n_n.contr.Idx) :
    (dot_S2048x2048_S512x2048_S2048x512_0_1_1_0_n_n.rhsIdx i q 0).val = (i 1).val := by
  unfold DotDims.rhsIdx
  rw [dif_neg (show ¬(0 : Fin S512x2048.rank) ∈ dot_S2048x2048_S512x2048_S2048x512_0_1_1_0_n_n.rhsBatch by decide),
    dif_pos (show (0 : Fin S512x2048.rank) ∈ dot_S2048x2048_S512x2048_S2048x512_0_1_1_0_n_n.rhsNonContracting by decide)]
  rfl
theorem rhs_col (i : S2048x512.Idx) (q : dot_S2048x2048_S512x2048_S2048x512_0_1_1_0_n_n.contr.Idx) :
    (dot_S2048x2048_S512x2048_S2048x512_0_1_1_0_n_n.rhsIdx i q 1).val = (q ⟨0, by decide⟩).val :=
  dot_S2048x2048_S512x2048_S2048x512_0_1_1_0_n_n.rhsIdx_val_of_single rfl i q

theorem lhs_at (d : Fin 2048) (r : Fin 512) (k : Fin 2048) :
    dot_S2048x2048_S512x2048_S2048x512_0_1_1_0_n_n.lhsIdx (ix2 d r)
      ((contrEquiv1 dot_S2048x2048_S512x2048_S2048x512_0_1_1_0_n_n 2048 rfl rfl).symm k) = ix2 k d := by
  have hk := contrEquiv1_symm_val dot_S2048x2048_S512x2048_S2048x512_0_1_1_0_n_n 2048 rfl rfl k
  funext a; apply Fin.ext
  match a with
  | ⟨0, _⟩ => exact (lhs_row _ _).trans hk
  | ⟨1, _⟩ => exact lhs_col _ _

theorem rhs_at (d : Fin 2048) (r : Fin 512) (k : Fin 2048) :
    dot_S2048x2048_S512x2048_S2048x512_0_1_1_0_n_n.rhsIdx (ix2 d r)
      ((contrEquiv1 dot_S2048x2048_S512x2048_S2048x512_0_1_1_0_n_n 2048 rfl rfl).symm k) = ix2 r k := by
  have hk := contrEquiv1_symm_val dot_S2048x2048_S512x2048_S2048x512_0_1_1_0_n_n 2048 rfl rfl k
  funext a; apply Fin.ext
  match a with
  | ⟨0, _⟩ => exact rhs_row _ _
  | ⟨1, _⟩ => exact (rhs_col _ _).trans hk

/-- Entry (d, r) of the product is the sum over k of the value matrix at (k, d) times the unnormalised weight (r, k). -/
theorem prodBlk_at (v0 : FVec Ideal S512x2048 .f32) (v8 : FVec Ideal S2048x2048 .bf16) (d : Fin 2048) (r : Fin 512) :
    prodBlk v0 v8 (ix2 d r) = ∑ k : Fin 2048, v8 (ix2 k d) * shifted (fun k : Fin 2048 => v0 (ix2 r k)) k := by
  unfold prodBlk
  refine (Ideal.matmul_constant_zero_apply dot_S2048x2048_S512x2048_S2048x512_0_1_1_0_n_n none _ _ (ix2 d r)).trans ?_
  rw [← Equiv.sum_comp (contrEquiv1 dot_S2048x2048_S512x2048_S2048x512_0_1_1_0_n_n 2048 rfl rfl).symm]
  refine Finset.sum_congr rfl fun k _ => ?_
  rw [lhs_at d r k, rhs_at d r k]
  show shapeCast S2048x2048 v8 shapeCasts_S2048x2048_S2048x2048 (ix2 k d) * expBlk v0 (ix2 r k) = _
  rw [shapeCast_self, expBlk_at]

/-- THE BODY, ENTRY BY ENTRY: entry (d, r) of what the body stores is the pooled entry of column d of the value
    matrix and row r of the block of similarities. -/
theorem pay_at (v0 : FVec Ideal S512x2048 .f32) (v8 : FVec Ideal S2048x2048 .bf16) (d : Fin 2048) (r : Fin 512) :
    Gen.k0_pay1 (F := Ideal) v0 v8 (ix2 d r)
      = pooledRow (fun k : Fin 2048 => v8 (ix2 k d)) (fun k : Fin 2048 => v0 (ix2 r k)) := by
  rw [pay_eq]
  show prodBlk v0 v8 (ix2 d r) * recipBlk v0 (ix2 d r) = _
  rw [prodBlk_at, recipBlk_at]
  rfl

end Cert.KernelIdeal.BlockBody

end
-- ==== Proof.WholeArray.lean ====
/-
  From blocks to the whole result array.

  The grid has 16 points. At point t the kernel reads the whole value matrix (the one slab of u with its unit axis
  dropped; narrowing its entries to a shorter format changes no extended real) and rows 512 t … 512 t + 511 of the
  similarities, and writes columns 512 t … 512 t + 511 of the 2048 by 8192 result. By the body's entry-by-entry
  reading, entry (d, r) of what point t writes is the pooled entry of column d of the value matrix and row
  512 t + r of the similarities: block t of ONE array, the pooled array of the two arguments. The 16 column blocks
  cover the result (column T lies in block T / 512), so after the run the result array is the pooled array.
-/
import proofs.«112721_g77283641524595_feedfinal_129_7_alg».proof.Proof.Gen.KernelIdeal.Value
import proofs.«112721_g77283641524595_feedfinal_129_7_alg».proof.Proof.BlockBody
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.WholeArray

open Cert.KernelIdeal Cert.KernelIdeal.Gen Cert.KernelIdeal.Value Idealize.ShloMosaic Idealize.ShloMosaic.TcCoe Idealize.SL.Sem
open Idealize.ShloMosaic.ValueIdx Cert.SoftmaxPool
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The pooled array of the two arguments as launched: what the result array is shown to hold. -/
abbrev result (c : Dev nD) : Buf (Elt Ideal) ((c : Thread nD τ).loc main_v2) :=
  pooled (m ((c : Thread nD τ).loc main_arg0)) (m ((c : Thread nD τ).loc main_arg1))

/-! ## The value matrix the region finds -/

/-- Before the region the value matrix is written from u: its unit axis dropped, its entries narrowed. -/
theorem valueMatrix (c : Dev nD) :
    @Eq (FVec Ideal S2048x2048 .bf16) (V m c main_v1)
      (truncf (F := Ideal) .bf16 (shapeCast S2048x2048 (m ((c : Thread nD τ).loc main_arg0) : FVec Ideal S1x2048x2048 .f32)
          Facts₀.shapeCasts_S1x2048x2048_S2048x2048) Facts₀.bitsLt_bf16_f32) := by
  dsimp only [Gen.V, Gen.hostOps0]; after_results; rfl

/-- Entry (k, d) of the value matrix is u at (0, k, d). -/
theorem valueMatrix_at (c : Dev nD) (k d : Fin 2048) :
    (V m c main_v1 : FVec Ideal S2048x2048 .bf16) (ix2 k d)
      = (m ((c : Thread nD τ).loc main_arg0) : FVec Ideal S1x2048x2048 .f32) (ix3 (0 : Fin 1) k d) := by
  rw [valueMatrix]
  exact shapeCast_1ab_ab_apply _ Facts₀.shapeCasts_S1x2048x2048_S2048x2048 k d

/-! ## Where each window's block lies -/

/-- The block indices of the three windows at every grid point: the value matrix's block is always the whole matrix, the
    similarities' block is row block t, the result's block is column block t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Row (or column) r of block t, as a row of the similarities (a column of the result). -/
def rowOf (t : Fin cfg0.N) (r : Fin 512) : Fin 8192 :=
  ⟨t.val * 512 + r.val, by have := t.isLt; have hN : cfg0.N = 16 := N_0; have := r.isLt; omega⟩

theorem emb0 (t : Fin cfg0.N) (k d : Fin 2048) : ((cfg0.win 0).blk t).view.emb (ix2 k d) = ix2 k d := by
  obtain ⟨e0, e1, -, -, -, -⟩ := idx_facts t
  funext a; apply Fin.ext
  match a with
  | ⟨0, _⟩ => show win0_0.index t (0 : Fin 2) * 2048 + 1 * k.val = k.val; omega
  | ⟨1, _⟩ => show win0_0.index t (1 : Fin 2) * 2048 + 1 * d.val = d.val; omega

theorem emb1 (t : Fin cfg0.N) (r : Fin 512) (k : Fin 2048) : ((cfg0.win 1).blk t).view.emb (ix2 r k) = ix2 (rowOf t r) k := by
  obtain ⟨-, -, e0, e1, -, -⟩ := idx_facts t
  funext a; apply Fin.ext
  match a with
  | ⟨0, _⟩ => show win0_1.index t (0 : Fin 2) * 512 + 1 * r.val = t.val * 512 + r.val; omega
  | ⟨1, _⟩ => show win0_1.index t (1 : Fin 2) * 2048 + 1 * k.val = k.val; omega

theorem emb2 (t : Fin cfg0.N) (d : Fin 2048) (r : Fin 512) : ((cfg0.win 2).blk t).view.emb (ix2 d r) = ix2 d (rowOf t r) := by
  obtain ⟨-, -, -, -, e0, e1⟩ := idx_facts t
  funext a; apply Fin.ext
  match a with
  | ⟨0, _⟩ => show win0_2.index t (0 : Fin 2) * 2048 + 1 * d.val = d.val; omega
  | ⟨1, _⟩ => show win0_2.index t (1 : Fin 2) * 512 + 1 * r.val = t.val * 512 + r.val; omega

/-- The value matrix's block at any point, entry (k, d): u at (0, k, d). -/
theorem valueBlock_at (c : Dev nD) (t : Fin cfg0.N) (k d : Fin 2048) :
    (iblk m c 0 t : FVec Ideal S2048x2048 .bf16) (ix2 k d)
      = (m ((c : Thread nD τ).loc main_arg0) : FVec Ideal S1x2048x2048 .f32) (ix3 (0 : Fin 1) k d) := by
  unfold iblk
  rw [View.read_apply]
  show (V m c main_v1 : FVec Ideal S2048x2048 .bf16) (((cfg0.win 0).blk t).view.emb (ix2 k d)) = _
  rw [emb0, valueMatrix_at]

/-- The similarities' block at point t, entry (r, k): s at (512 t + r, k). -/
theorem simBlock_at (c : Dev nD) (t : Fin cfg0.N) (r : Fin 512) (k : Fin 2048) :
    (iblk m c 1 t : FVec Ideal S512x2048 .f32) (ix2 r k)
      = (m ((c : Thread nD τ).loc main_arg1) : FVec Ideal S8192x2048 .f32) (ix2 (rowOf t r) k) := by
  unfold iblk
  rw [View.read_apply]
  show (V m c main_arg1 : FVec Ideal S8192x2048 .f32) (((cfg0.win 1).blk t).view.emb (ix2 r k)) = _
  rw [emb1, V_main_arg1]

/-! ## What a point writes back, the cover, the array -/

/-- WHAT POINT t WRITES BACK is block t of the pooled array of the arguments. -/
theorem flushed_eq (c : Dev nD) (t : Fin cfg0.N) :
    (dats m 0 c).flushed 2 t = ((cfg0.win 2).blk t).view.read (Elt Ideal) (result m c) := by
  rw [flushed2]
  unfold out0_2
  rw [View.canon_unit_zero hz]
  simp only [View.ld_unit_zero (S := S512x2048) hz, View.ld_unit_zero (S := S2048x2048) hz]
  funext j
  obtain ⟨d, r, rfl⟩ : ∃ (d : Fin 2048) (r : Fin 512), j = ix2 d r := ⟨j 0, j 1, eq_ix2 j⟩
  show k0_pay1 (F := Ideal) (iblk m c 1 t) (iblk m c 0 t) (ix2 d r)
    = pooled (m ((c : Thread nD τ).loc main_arg0)) (m ((c : Thread nD τ).loc main_arg1)) (((cfg0.win 2).blk t).view.emb (ix2 d r))
  rw [emb2, pooled_at]
  refine (BlockBody.pay_at (iblk m c 1 t) (iblk m c 0 t) d r).trans ?_
  exact congrArg₂ (pooledRow (n := 2048)) (funext fun k => valueBlock_at m c t k d) (funext fun k => simBlock_at m c t r k)

/-- An index of the result is in point t's block iff each coordinate is in the block's range on its axis. -/
theorem mem_blk (t : Fin cfg0.N) (i : S2048x8192.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v2).slice (win0_2.rect t)).set ↔ _
  rw [View.set_slice_whole, Rect.mem_set_unit]
  exact Iff.rfl

/-- Every index of the result lies in some point's block: column T in block T / 512. -/
theorem cover (i : S2048x8192.Idx) :
    ∃ t : Fin cfg0.N, (cfg0.win 2).flush t = true ∧ i ∈ ((cfg0.win 2).blk t).view.set := by
  have hi0 : (i 0).val < 2048 := (i 0).isLt
  have hi1 : (i 1).val < 8192 := (i 1).isLt
  have hN : cfg0.N = 16 := N_0
  refine ⟨⟨(i 1).val / 512, by rw [hN]; omega⟩, flush0_2 _, ?_⟩
  obtain ⟨-, -, -, -, e0, e1⟩ := idx_facts ⟨(i 1).val / 512, by rw [hN]; omega⟩
  rw [mem_blk]
  intro a
  match a with
  | ⟨0, _⟩ =>
    show win0_2.index _ (0 : Fin 2) * 2048 ≤ (i 0).val ∧ (i 0).val < win0_2.index _ (0 : Fin 2) * 2048 + 2048
    rw [e0]; omega
  | ⟨1, _⟩ =>
    show win0_2.index _ (1 : Fin 2) * 512 ≤ (i 1).val ∧ (i 1).val < win0_2.index _ (1 : Fin 2) * 512 + 512
    rw [e1]
    show (i 1).val / 512 * 512 ≤ (i 1).val ∧ (i 1).val < (i 1).val / 512 * 512 + 512
    omega

/-- THE ARRAY after the run is the pooled array of the arguments. -/
theorem final (c : Dev nD) : (dats m 0 c).arrAt 2 cfg0.N = result m c :=
  (dats m 0 c).arrAt_eq_of_cover 2 (result m c) (fun t _ => flushed_eq m c t) cover

/-- THE RUN, READ: the result array at the pooled array of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeArray

end
-- ==== Proof.ReferencePooled.lean ====
/-
  The reference, read entry by entry.

  The reference takes the softmax of every row of the similarities — the row maximum (from −∞, then once more
  against −∞, which changes nothing), the exponentials of the row less its maximum, their sum, and every exponential
  divided by that sum —, multiplies the 8192 by 2048 matrix of normalised weights with the value matrix, and
  transposes. So entry (d, t) of its result is
      Σ_k (exp (s (t, k) − max s (t, ·)) / D t) · u (0, k, d),      D t = Σ_j exp (s (t, j) − max s (t, ·)),
  the pooled entry in the order: normalise first, then sum. When every entry of u and of s is a real number this is the
  pooled entry in the other order (sum the unnormalised products, multiply by the reciprocal once), by the law of
  the mathematics module.
-/
import proofs.«112721_g77283641524595_feedfinal_129_7_alg».proof.Proof.Gen.ReferenceIdeal.Read
import proofs.«112721_g77283641524595_feedfinal_129_7_alg».proof.Proof.SoftmaxPool
import Idealize.ShloMosaic.Lib.ValueIdx
import Idealize.ShloMosaic.PureOps.Ideal.Laws
import Idealize.ShloMosaic.PureOps.Reduce

noncomputable section

namespace Cert.ReferenceIdeal.Pooled

open Cert.ReferenceIdeal Cert.ReferenceIdeal.Read Idealize.ShloMosaic Idealize.ShloMosaic.ValueIdx Cert.SoftmaxPool
open Facts₀

/-- The reference's row maximum at row t is the maximum of row t from −∞. -/
theorem ref_rowMax (x1 : (⟨S8192x2048, .f32⟩ : BufTy).Contents (Elt Ideal)) (t : Fin 8192) :
    val_main_v2 (F := Ideal) x1 (ix1 t) = rowMax (fun k : Fin 2048 => x1 (ix2 t k)) := by
  have hR : S8192x2048.Reduces [1] S8192 := by decide
  refine (val_main_v2_apply x1 (ix1 t)).trans ?_
  rw [val_main_v1_apply, val_main_cst_0_apply]
  show max (Ideal.ofBits .f32 0xFF800000#32) (val_main_v0 (F := Ideal) x1 (ix1 t)) = _
  rw [bot_f32, max_eq_right bot_le]
  unfold val_main_v0
  refine (Host.reduce_eq_fold_single (FloatOps.maximumf (F := Ideal) (φ := .f32)) x1 (val_main_cst (F := Ideal))
    reducesTo_S8192x2048_S8192_d1 hR h_S_ (ix1 t)).trans ?_
  unfold rowMax
  show (Finset.univ : Finset (Fin 2048)).fold max (Ideal.ofBits .f32 0xFF800000#32) (fun k => x1 (hR.lift (ix1 t) k)) = _
  rw [bot_f32]
  refine congrArg (fun f => (Finset.univ : Finset (Fin 2048)).fold max ⊥ f) (funext fun k => congrArg x1 (funext fun a => Fin.ext ?_))
  match a with
  | ⟨0, _⟩ => rfl
  | ⟨1, _⟩ => rfl

/-- The reference's exponential at (t, k) is the shifted exponential of entry k of row t. -/
theorem ref_shifted (x1 : (⟨S8192x2048, .f32⟩ : BufTy).Contents (Elt Ideal)) (t : Fin 8192) (k : Fin 2048) :
    val_main_v6 (F := Ideal) x1 (ix2 t k) = shifted (fun k : Fin 2048 => x1 (ix2 t k)) k := by
  have hi : idx_main_v3 (idx_main_v4 (ix2 t k)) = ix1 t := funext fun a => by match a with | ⟨0, _⟩ => rfl
  rw [val_main_v6_apply, val_main_v5_apply, val_main_v4_apply, val_main_v3_apply, hi, ref_rowMax]
  rfl

/-- The reference's denominator, broadcast to (t, k), is the sum of row t's shifted exponentials. -/
theorem ref_denom (x1 : (⟨S8192x2048, .f32⟩ : BufTy).Contents (Elt Ideal)) (t : Fin 8192) (k : Fin 2048) :
    val_main_v9 (F := Ideal) x1 (ix2 t k) = ∑ j : Fin 2048, shifted (fun k : Fin 2048 => x1 (ix2 t k)) j := by
  have hi : idx_main_v8 (idx_main_v9 (ix2 t k)) = ix1 t := funext fun a => by match a with | ⟨0, _⟩ => rfl
  rw [val_main_v9_apply, val_main_v8_apply, hi, val_main_v7_apply, val_main_cst_1_apply]
  show Ideal.ofBits .f32 0x00000000#32 + _ = _
  rw [Ideal.ofBits_zero_f32, zero_add]
  refine Finset.sum_congr rfl fun j _ => ?_
  have hj : idx_main_v7 (ix1 t) j = ix2 t j := funext fun a => by match a with | ⟨0, _⟩ => rfl | ⟨1, _⟩ => rfl
  rw [hj, ref_shifted]

/-- The reference's value matrix (the one slab of u, its unit axis dropped) at (k, d) is u at (0, k, d). -/
theorem ref_value (x0 : (⟨S1x2048x2048, .f32⟩ : BufTy).Contents (Elt Ideal)) (k d : Fin 2048) :
    val_main_v11 (F := Ideal) x0 (ix2 k d) = x0 (ix3 (0 : Fin 1) k d) := by
  rw [val_main_v11_apply]
  refine congrArg x0 (funext fun a => Fin.ext ?_)
  match a with
  | ⟨0, _⟩ => rfl
  | ⟨1, _⟩ =>
    show (k.val * 2048 + d.val) / 2048 % 2048 = k.val
    have := k.isLt; have := d.isLt; omega
  | ⟨2, _⟩ =>
    show (k.val * 2048 + d.val) % 2048 = d.val
    have := d.isLt; omega

/-- Entry (d, t) of the reference's result: the sum over k of the normalised weight (t, k) times u (0, k, d). -/
theorem ref_at (x0 : (⟨S1x2048x2048, .f32⟩ : BufTy).Contents (Elt Ideal)) (x1 : (⟨S8192x2048, .f32⟩ : BufTy).Contents (Elt Ideal))
    (d : Fin 2048) (t : Fin 8192) :
    val_main_v13 (F := Ideal) x0 x1 (ix2 d t)
      = ∑ k : Fin 2048, Ideal.div (shifted (fun k : Fin 2048 => x1 (ix2 t k)) k)
          (∑ j : Fin 2048, shifted (fun k : Fin 2048 => x1 (ix2 t k)) j) * x0 (ix3 (0 : Fin 1) k d) := by
  have hi : idx_main_v13 (ix2 d t) = ix2 t d := funext fun a => by match a with | ⟨0, _⟩ => rfl | ⟨1, _⟩ => rfl
  rw [val_main_v13_apply, hi, val_main_v12_apply]
  refine Finset.sum_congr rfl fun k _ => ?_
  have hl : lidx_main_v12 (ix2 t d) k = ix2 t k := funext fun a => by match a with | ⟨0, _⟩ => rfl | ⟨1, _⟩ => rfl
  have hr : ridx_main_v12 (ix2 t d) k = ix2 k d := funext fun a => by match a with | ⟨0, _⟩ => rfl | ⟨1, _⟩ => rfl
  rw [hl, hr, val_main_v10_apply, ref_shifted, ref_denom, ref_value]
  rfl

/-- THE REFERENCE IS THE POOLED ARRAY when every entry of both arguments is a real number. -/
theorem ref_eq_pooled (x0 : (⟨S1x2048x2048, .f32⟩ : BufTy).Contents (Elt Ideal)) (x1 : (⟨S8192x2048, .f32⟩ : BufTy).Contents (Elt Ideal))
    (h0 : ∀ i, ∃ r : ℝ, x0 i = (r : EReal)) (h1 : ∀ i, ∃ r : ℝ, x1 i = (r : EReal)) :
    val_main_v13 (F := Ideal) x0 x1 = pooled x0 x1 := by
  funext i
  obtain ⟨d, t, rfl⟩ : ∃ (d : Fin 2048) (t : Fin 8192), i = ix2 d t := ⟨i 0, i 1, eq_ix2 i⟩
  rw [ref_at, pooled_at]
  exact (pooledRow_eq_sum_div (by norm_num) _ _ (fun k => h0 _) (fun k => h1 _)).symm

end Cert.ReferenceIdeal.Pooled

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.FiniteArgs.lean ====
/-
  The precondition, read back: every entry of both arguments is a real number.

  The precondition computes, for each argument, whether the absolute value of every entry is below +∞, and takes the
  conjunction of the two answers. If the conjunction is 1 then both answers are 1, and an answer 1 says that every entry
  of that argument is a real number (neither −∞ nor +∞).
-/
import proofs.«112721_g77283641524595_feedfinal_129_7_alg».proof.Pre_finite_inputs
import proofs.«112721_g77283641524595_feedfinal_129_7_alg».proof.Proof.Gen.Pre_finite_inputs
import proofs.«112721_g77283641524595_feedfinal_129_7_alg».proof.Proof.LibFiniteEntries
import Idealize.ShloMosaic.Lib.Affine
import Idealize.ShloMosaic.Lib.ValueIdx

noncomputable section

namespace Cert.Pre_finite_inputs.Real

open Cert.Pre_finite_inputs Idealize.ShloMosaic
open Facts

/-- If the finiteness test of the two arguments came out 1, every entry of u and every entry of s is a real number. -/
theorem real_of_pre [Facts] (x0 : FVec Ideal S1x2048x2048 .f32) (x1 : FVec Ideal S8192x2048 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.mp h0
  exact ⟨fun i => Cert.LibFiniteEntries.real_of_all x0 bcast_S_S1x2048x2048 _ reducesTo_S1x2048x2048_S_d0_1_2 h_S_ ValueIdx.ix0 ha i,
    fun i => Cert.LibFiniteEntries.real_of_all x1 bcast_S_S8192x2048 _ reducesTo_S8192x2048_S_d0_1 h_S_ ValueIdx.ix0 hb i⟩

end Cert.Pre_finite_inputs.Real

end
-- ==== Proof.lean ====
/-
  Attention pooling by a row softmax: a fused kernel against the textbook computation.

  Inputs: a value matrix u (one slab of 2048 rows and 2048 columns) and similarities s (8192 rows of 2048 columns).
  The result is 2048 by 8192: entry (d, t) is  Σ_k softmax(s (t, ·)) k · u (0, k, d).

  The reference normalises first: it forms the softmax of every row (row maximum, exponentials of the row less its
  maximum, their sum, each exponential divided by the sum), multiplies the matrix of normalised weights with the value
  matrix and transposes. The kernel works on 16 blocks of 512 rows of s: for each block it forms the unnormalised
  weights and their row sums, multiplies the transposed value matrix with the transposed unnormalised weights, and only
  then multiplies each column of the product by the reciprocal of that column's denominator. Changes of float format
  are the identity on extended reals, and the order of summation does not matter there, so the two programs differ
  only in where the division happens:
      (Σ_k u (0, k, d) · e (t, k)) · (1 / D t)   against   Σ_k (e (t, k) / D t) · u (0, k, d),
  with e (t, k) = exp (s (t, k) − max s (t, ·)) and D t = Σ_k e (t, k). These agree by distributivity, which needs every
  term to be a real number; the precondition (every input entry finite) gives that: the row maximum of real entries is
  real, each e (t, k) is a positive real, and D t is a positive real.

  The modules: SoftmaxPool (the mathematics and the law), BlockBody (what the kernel body stores, entry by entry),
  WholeArray (the 16 column blocks are one array), ReferencePooled (the reference's result, entry by entry, is the same
  array for real inputs), FiniteArgs (the precondition read back). The three frames are the programs' runs with the
  result dropped; the idealised kernel is the kernel's own text, so nothing is to be preserved.
-/
import proofs.«112721_g77283641524595_feedfinal_129_7_alg».proof.Defs
import proofs.«112721_g77283641524595_feedfinal_129_7_alg».proof.Proof.Gen.Kernel
import proofs.«112721_g77283641524595_feedfinal_129_7_alg».proof.Proof.Gen.Kernel.Skeleton
import proofs.«112721_g77283641524595_feedfinal_129_7_alg».proof.Proof.Gen.Kernel.Launch
import proofs.«112721_g77283641524595_feedfinal_129_7_alg».proof.Proof.Gen.Kernel.Points
import proofs.«112721_g77283641524595_feedfinal_129_7_alg».proof.Proof.Gen.Kernel.Frame
import proofs.«112721_g77283641524595_feedfinal_129_7_alg».proof.Proof.Gen.KernelIdeal
import proofs.«112721_g77283641524595_feedfinal_129_7_alg».proof.Proof.Gen.KernelIdeal.Skeleton
import proofs.«112721_g77283641524595_feedfinal_129_7_alg».proof.Proof.Gen.KernelIdeal.Launch
import proofs.«112721_g77283641524595_feedfinal_129_7_alg».proof.Proof.Gen.KernelIdeal.Points
import proofs.«112721_g77283641524595_feedfinal_129_7_alg».proof.Proof.Gen.KernelIdeal.Frame
import proofs.«112721_g77283641524595_feedfinal_129_7_alg».proof.Proof.Gen.ReferenceIdeal
import proofs.«112721_g77283641524595_feedfinal_129_7_alg».proof.Proof.Gen.Pre_finite_inputs
import proofs.«112721_g77283641524595_feedfinal_129_7_alg».proof.Proof.Gen.KernelIdeal.Value
import proofs.«112721_g77283641524595_feedfinal_129_7_alg».proof.Proof.Gen.ReferenceIdeal.Run
import proofs.«112721_g77283641524595_feedfinal_129_7_alg».proof.Proof.Gen.ReferenceIdeal.Read
import proofs.«112721_g77283641524595_feedfinal_129_7_alg».proof.Proof.WholeArray
import proofs.«112721_g77283641524595_feedfinal_129_7_alg».proof.Proof.ReferencePooled
import proofs.«112721_g77283641524595_feedfinal_129_7_alg».proof.Proof.FiniteArgs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel read on extended reals runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel on extended reals is the kernel's own text: no rewrite was applied, nothing is to be preserved. -/
theorem preserves : Cert.preserves_Kernel_KernelIdeal := trivial

/-- From memories that agree on the arguments, both programs end with the pooled array of the arguments: the kernel by
    its blocks (no finiteness needed), the reference by the law that moves the division out of the sum (every input
    entry real, from the precondition). -/
theorem algebraic : Cert.algebraic_KernelIdeal_ReferenceIdeal := by
  intro m ρ m' ρ' hpre hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Real.real_of_pre _ _ (hpre c)
  rw [Cert.ReferenceIdeal.Read.val_main_v13_eq, (hagree c).1, (hagree c).2]
  exact Cert.ReferenceIdeal.Pooled.ref_eq_pooled _ _ h0 h1

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
